-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S131072 : Shape := ⟨1, ![131072]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S131072 .f32) (main_arg3 : IVec S131072 32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S131072 : Shape := ⟨1, ![131072]⟩
abbrev S4096 : Shape := ⟨1, ![4096]⟩
abbrev S8192x4096 : Shape := ⟨2, ![8192, 4096]⟩
abbrev S4096x32 : Shape := ⟨2, ![4096, 32]⟩
abbrev S1x4096 : Shape := ⟨2, ![1, 4096]⟩
abbrev S512x4096 : Shape := ⟨2, ![512, 4096]⟩
abbrev S128x4096 : Shape := ⟨2, ![128, 4096]⟩
abbrev S128x32 : Shape := ⟨2, ![128, 32]⟩
abbrev S1x128 : Shape := ⟨2, ![1, 128]⟩
abbrev S512x128 : Shape := ⟨2, ![512, 128]⟩
abbrev S128x32x128 : Shape := ⟨3, ![128, 32, 128]⟩
abbrev S128x32x1 : Shape := ⟨3, ![128, 32, 1]⟩
abbrev S4096x128 : Shape := ⟨2, ![4096, 128]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S131072, .f32⟩
  | .hbm, ⟨3, _⟩ => ⟨S131072, .i32⟩
  | .hbm, ⟨4, _⟩ => ⟨S4096, .f32⟩
  | .hbm, ⟨5, _⟩ => ⟨S8192x4096, .f32⟩
  | .hbm, ⟨6, _⟩ => ⟨S4096x32, .f32⟩
  | .hbm, ⟨7, _⟩ => ⟨S4096x32, .i32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S128x4096, .i32⟩
  | .local _ .vmem, ⟨3, _⟩ => ⟨S128x4096, .i32⟩
  | .local _ .vmem, ⟨4, _⟩ => ⟨S128x32, .f32⟩
  | .local _ .vmem, ⟨5, _⟩ => ⟨S128x32, .f32⟩
  | .local _ .vmem, ⟨6, _⟩ => ⟨S128x32, .i32⟩
  | .local _ .vmem, ⟨7, _⟩ => ⟨S128x32, .i32⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S131072_S4096x32 : S131072.ShapeCasts S4096x32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  transposes_S128x4096_p1_0_S4096x128 : S128x4096.Transposes [1, 0] S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S8192x4096_S4x2048x4096 : S8192x4096.ShapeCasts S4x2048x4096
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .i32 = 32 ∨ (Rect.block (s := S4096x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S4096x32.size a
  hwx0_2 : ∀ i : grid0.Coords, EltTy.bits .f32 = 32 ∨ (Rect.block (s := S4096x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S4096x32.size a
  hwx0_3 : ∀ i : grid0.Coords, EltTy.bits .i32 = 32 ∨ (Rect.block (s := S4096x32) S128x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x4096.size a
  hwx0_4 : ∀ i : grid0.Coords, EltTy.bits .f32 = 32 ∨ (Rect.block (s := S1x4096) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x4096.size a
  hwx0_5 : ∀ i : grid0.Coords, EltTy.bits .f32 = 32 ∨ (Rect.block (s := S8192x4096) S512x128.size (cc0_transform_5 i) (hinb0_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S131072 : Shape := ⟨1, ![131072]⟩
abbrev S4096 : Shape := ⟨1, ![4096]⟩
abbrev S131072x128 : Shape := ⟨2, ![131072, 128]⟩
abbrev S131072x1 : Shape := ⟨2, ![131072, 1]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S131072, .f32⟩
  | .hbm, ⟨3, _⟩ => ⟨S131072, .i32⟩
  | .hbm, ⟨4, _⟩ => ⟨S4096, .f32⟩
  | .hbm, ⟨5, _⟩ => ⟨S131072x128, .i32⟩
  | .hbm, ⟨6, _⟩ => ⟨S131072x128, .f32⟩
  | .hbm, ⟨7, _⟩ => ⟨S131072x1, .i32⟩
  | .hbm, ⟨8, _⟩ => ⟨S131072x1, .f32⟩
  | .hbm, ⟨9, _⟩ => ⟨S131072x128, .f32⟩
  | .hbm, ⟨10, _⟩ => ⟨S131072x128, .f32⟩
  | .hbm, ⟨11, _⟩ => ⟨S131072x1, .f32⟩
  | .hbm, ⟨12, _⟩ => ⟨S131072x128, .f32⟩
  | .hbm, ⟨13, _⟩ => ⟨S131072x128, .f32⟩
  | .hbm, ⟨14, _⟩ => ⟨S4096x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S4096x4096_S131072x128 : S4096x4096.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Linear.lean ====
/-
  The function both programs compute, over the extended reals: a linear layer whose weight matrix is stored
  as 4-bit integers quantized in groups. Row `o` of the 4096 × 4096 integer matrix `w` is cut into 32 groups
  of 128 consecutive columns; group `o * 32 + k / 128` of the flat tables has one scale `sc` and one integer
  zero point `zp`, and the real weight is `(w[o, k] - zp[group]) * sc[group]`. The layer sends a row `x[r, ·]`
  to `∑ k, x[r, k] * weight[o, k] + bias[o]`. It is stated twice, over the input as a batch of 4 × 2048 rows and
  over the same rows numbered `0 … 8191`, and the two agree under the row numbering `r = i * 2048 + j`.
-/
import Idealize.ShloMosaic.PureOps.Ideal
import Idealize.ShloMosaic.Lib.ValueIdx

noncomputable section

namespace Cert.QLinear

open Idealize.ShloMosaic Idealize.ShloMosaic.ValueIdx

/-- The quantization group of the weight entry `(o, k)`: 32 groups of 128 columns in each of the 4096 rows. -/
def grp (o k : Fin 4096) : Fin 131072 :=
  ⟨o.val * 32 + k.val / 128, by have := o.isLt; have := k.isLt; omega⟩

/-- The dequantized weight: the integer less its group's zero point, both as reals, times the group's scale. -/
def weight (w : (⟨2, ![4096, 4096]⟩ : Shape).Idx → BitVec 32) (sc : (⟨1, ![131072]⟩ : Shape).Idx → EReal)
    (zp : (⟨1, ![131072]⟩ : Shape).Idx → BitVec 32) (o k : Fin 4096) : EReal :=
  (FloatOps.sitofp (F := Ideal) .f32 (w (ix2 o k)) - FloatOps.sitofp (F := Ideal) .f32 (zp (ix1 (grp o k)))) * sc (ix1 (grp o k))

/-- The layer's entry for row `r` of the rows numbered `0 … 8191` and output column `o`: the row of `x` against row
    `o` of the dequantized weight, plus the bias of column `o`. -/
def rowsAt (x : (⟨2, ![8192, 4096]⟩ : Shape).Idx → EReal) (w : (⟨2, ![4096, 4096]⟩ : Shape).Idx → BitVec 32)
    (sc : (⟨1, ![131072]⟩ : Shape).Idx → EReal) (zp : (⟨1, ![131072]⟩ : Shape).Idx → BitVec 32)
    (b : (⟨1, ![4096]⟩ : Shape).Idx → EReal) (r : Fin 8192) (o : Fin 4096) : EReal :=
  (∑ k : Fin 4096, x (ix2 r k) * weight w sc zp o k) + b (ix1 o)

/-- The layer over the numbered rows, as an array. -/
def rows (x : (⟨2, ![8192, 4096]⟩ : Shape).Idx → EReal) (w : (⟨2, ![4096, 4096]⟩ : Shape).Idx → BitVec 32)
    (sc : (⟨1, ![131072]⟩ : Shape).Idx → EReal) (zp : (⟨1, ![131072]⟩ : Shape).Idx → BitVec 32)
    (b : (⟨1, ![4096]⟩ : Shape).Idx → EReal) : (⟨2, ![8192, 4096]⟩ : Shape).Idx → EReal := fun i =>
  rowsAt x w sc zp b (i 0) (i 1)

/-- The layer's entry for row `(i, j)` of the batch of 4 × 2048 rows and output column `o`. -/
def batchAt (x : (⟨3, ![4, 2048, 4096]⟩ : Shape).Idx → EReal) (w : (⟨2, ![4096, 4096]⟩ : Shape).Idx → BitVec 32)
    (sc : (⟨1, ![131072]⟩ : Shape).Idx → EReal) (zp : (⟨1, ![131072]⟩ : Shape).Idx → BitVec 32)
    (b : (⟨1, ![4096]⟩ : Shape).Idx → EReal) (i : Fin 4) (j : Fin 2048) (o : Fin 4096) : EReal :=
  (∑ k : Fin 4096, x (ix3 i j k) * weight w sc zp o k) + b (ix1 o)

/-- The layer over the batch, as an array. -/
def batch (x : (⟨3, ![4, 2048, 4096]⟩ : Shape).Idx → EReal) (w : (⟨2, ![4096, 4096]⟩ : Shape).Idx → BitVec 32)
    (sc : (⟨1, ![131072]⟩ : Shape).Idx → EReal) (zp : (⟨1, ![131072]⟩ : Shape).Idx → BitVec 32)
    (b : (⟨1, ![4096]⟩ : Shape).Idx → EReal) : (⟨3, ![4, 2048, 4096]⟩ : Shape).Idx → EReal := fun i =>
  batchAt x w sc zp b (i 0) (i 1) (i 2)

/-- Row `i * 2048 + j` of the numbered rows is row `(i, j)` of the batch. -/
def rowOf (i : Fin 4) (j : Fin 2048) : Fin 8192 := ⟨i.val * 2048 + j.val, by have := i.isLt; have := j.isLt; omega⟩

/-- The two statements agree: if the numbered rows are the batch's rows, the numbered result at row
    `i * 2048 + j` is the batch result at `(i, j)`. -/
theorem rowsAt_eq_batchAt (x2 : (⟨2, ![8192, 4096]⟩ : Shape).Idx → EReal) (x : (⟨3, ![4, 2048, 4096]⟩ : Shape).Idx → EReal)
    (hx : ∀ (i : Fin 4) (j : Fin 2048) (k : Fin 4096), x2 (ix2 (rowOf i j) k) = x (ix3 i j k))
    (w : (⟨2, ![4096, 4096]⟩ : Shape).Idx → BitVec 32) (sc : (⟨1, ![131072]⟩ : Shape).Idx → EReal)
    (zp : (⟨1, ![131072]⟩ : Shape).Idx → BitVec 32) (b : (⟨1, ![4096]⟩ : Shape).Idx → EReal)
    (i : Fin 4) (j : Fin 2048) (o : Fin 4096) :
    rowsAt x2 w sc zp b (rowOf i j) o = batchAt x w sc zp b i j o := by
  unfold rowsAt batchAt
  simp only [hx]

end Cert.QLinear

end
-- ==== Proof.Reference.lean ====
/-
  The reference program computes the quantized linear layer. Its host operations, read one at a time at an
  index, regroup the integer matrix as 131072 rows of 128 (one row per quantization group), subtract each
  group's zero point and multiply by its scale along the row, regroup back to 4096 × 4096 and contract the last
  axis of the input with the last axis of that matrix. Entry `(o, k)` of the matrix sits in row
  `(o * 4096 + k) / 128 = o * 32 + k / 128` of the regrouped form, which is the group the specification names.
-/
import proofs.«131902_j88673894793301_1_alg».proof.Proof.Gen.ReferenceIdeal.Read
import proofs.«131902_j88673894793301_1_alg».proof.Proof.Linear

noncomputable section

namespace Cert.ReferenceIdeal.RefValue

open Cert.ReferenceIdeal Cert.ReferenceIdeal.Gen Cert.ReferenceIdeal.Read
open Idealize.ShloMosaic Idealize.ShloMosaic.ValueIdx Cert.QLinear

/-- The weight entry the contraction meets at `(o, k)`: back through the two regroupings it is entry `(o, k)` of
    the integer matrix, less the zero point and times the scale of group `o * 32 + k / 128`. -/
theorem weight_entry (x1 : (⟨S4096x4096, .i32⟩ : BufTy).Contents (Elt Ideal)) (x2 : (⟨S131072, .f32⟩ : BufTy).Contents (Elt Ideal))
    (x3 : (⟨S131072, .i32⟩ : BufTy).Contents (Elt Ideal)) (o k : Fin 4096) :
    val_main_v9 (F := Ideal) x1 x2 x3 (ix2 o k) = weight x1 x2 x3 o k := by
  have ho : o.val < 4096 := o.isLt
  have hk : k.val < 4096 := k.isLt
  have e1 : idx_main_v0 (idx_main_v9 (ix2 o k)) = ix2 o k := funext fun a => Fin.ext (by
    match a with
    | ⟨0, _⟩ => show ((o.val * 4096 + k.val) / 128 * 128 + (o.val * 4096 + k.val) % 128) / 4096 = o.val; omega
    | ⟨1, _⟩ => show ((o.val * 4096 + k.val) / 128 * 128 + (o.val * 4096 + k.val) % 128) % 4096 = k.val; omega)
  have e3 : idx_main_v2 (idx_main_v4 (idx_main_v9 (ix2 o k))) = ix1 (grp o k) := funext fun a => Fin.ext (by
    match a with
    | ⟨0, _⟩ => show (o.val * 4096 + k.val) / 128 = o.val * 32 + k.val / 128; omega)
  have e2 : idx_main_v6 (idx_main_v7 (idx_main_v9 (ix2 o k))) = ix1 (grp o k) := funext fun a => Fin.ext (by
    match a with
    | ⟨0, _⟩ => show (o.val * 4096 + k.val) / 128 = o.val * 32 + k.val / 128; omega)
  rw [val_main_v9_apply, val_main_v8_apply, val_main_v5_apply, val_main_v1_apply, val_main_v0_apply,
    val_main_v4_apply, val_main_v3_apply, val_main_v2_apply, val_main_v7_apply, val_main_v6_apply, e1, e3, e2]
  rfl

/-- The reference's result is the layer over the batch of the arguments. -/
theorem result_eq (x0 : (⟨S4x2048x4096, .f32⟩ : BufTy).Contents (Elt Ideal)) (x1 : (⟨S4096x4096, .i32⟩ : BufTy).Contents (Elt Ideal))
    (x2 : (⟨S131072, .f32⟩ : BufTy).Contents (Elt Ideal)) (x3 : (⟨S131072, .i32⟩ : BufTy).Contents (Elt Ideal))
    (x4 : (⟨S4096, .f32⟩ : BufTy).Contents (Elt Ideal)) :
    val_main_v13 (F := Ideal) x0 x1 x2 x3 x4 = batch x0 x1 x2 x3 x4 := by
  funext i
  obtain ⟨a, b, o, rfl⟩ : ∃ (a : Fin 4) (b : Fin 2048) (o : Fin 4096), i = ix3 a b o := ⟨i 0, i 1, i 2, eq_ix3 i⟩
  have el : ∀ k : Fin 4096, lidx_main_v10 (ix3 a b o) k = ix3 a b k := fun k =>
    funext fun d => match d with | ⟨0, _⟩ => rfl | ⟨1, _⟩ => rfl | ⟨2, _⟩ => rfl
  have er : ∀ k : Fin 4096, ridx_main_v10 (ix3 a b o) k = ix2 o k := fun k =>
    funext fun d => match d with | ⟨0, _⟩ => rfl | ⟨1, _⟩ => rfl
  have eb : idx_main_v11 (idx_main_v12 (ix3 a b o)) = ix1 o := funext fun d => match d with | ⟨0, _⟩ => rfl
  rw [val_main_v13_apply, val_main_v10_apply, val_main_v12_apply, val_main_v11_apply, eb]
  show (∑ k : Fin 4096, x0 (lidx_main_v10 (ix3 a b o) k) * val_main_v9 (F := Ideal) x1 x2 x3 (ridx_main_v10 (ix3 a b o) k)) + x4 (ix1 o)
    = (∑ k : Fin 4096, x0 (ix3 a b k) * weight x1 x2 x3 o k) + x4 (ix1 o)
  refine congrArg (· + x4 (ix1 o)) (Finset.sum_congr rfl fun k _ => ?_)
  rw [el, er, weight_entry]

end Cert.ReferenceIdeal.RefValue

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.Entry.lean ====
/-
  The arrays as the kernel's region finds them. Four host lines run before the region: the batch of 4 × 2048
  input rows is renumbered as 8192 rows, the flat tables of scales and zero points are cut into 4096 rows of 32
  groups, and the bias vector gets a leading unit axis; the integer weight matrix is passed as it is. Each is read
  here at an index in terms of the program's arguments: row `i * 2048 + j` of the renumbered input is row `(i, j)`
  of the batch, entry `(o, u)` of a cut table is entry `o * 32 + u` of the flat table.
-/
import proofs.«131902_j88673894793301_1_alg».proof.Proof.Gen.KernelIdeal.Frame
import proofs.«131902_j88673894793301_1_alg».proof.Proof.LibRegroup
import proofs.«131902_j88673894793301_1_alg».proof.Proof.Linear
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.ValueIdx Idealize.ShloMosaic.Regroup Cert.QLinear

variable (m : (ℓ : Loc nD τ sig) → Buf (Elt Ideal) ℓ)

/-- The renumbered input rows are the batch regrouped. -/
theorem rows_array (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The scales, cut into rows of 32 groups. -/
theorem scales_array (c : Dev nD) : (V m c main_v1 : S4096x32.Idx → EReal)
    = shapeCast S4096x32 (m ((c : Thread nD τ).loc main_arg2)) shapeCasts_S131072_S4096x32 := by
  show StableHlo.after hostOps0 (fun b => m (c, b)) (Proc.devRef .tc main_v1) = _
  after_results
  rfl

/-- The zero points, cut into rows of 32 groups. -/
theorem zeros_array (c : Dev nD) : (V m c main_v2 : S4096x32.Idx → BitVec 32)
    = shapeCast S4096x32 (m ((c : Thread nD τ).loc main_arg3)) shapeCasts_S131072_S4096x32 := by
  show StableHlo.after hostOps0 (fun b => m (c, b)) (Proc.devRef .tc main_v2) = _
  after_results
  rfl

/-- The bias as one row. -/
theorem bias_array (c : Dev nD) : (V m c main_v3 : S1x4096.Idx → EReal)
    = shapeCast S1x4096 (m ((c : Thread nD τ).loc main_arg4)) shapeCasts_S4096_S1x4096 := by
  show StableHlo.after hostOps0 (fun b => m (c, b)) (Proc.devRef .tc main_v3) = _
  after_results
  rfl

/-- Row `i * 2048 + j` of the renumbered input is row `(i, j)` of the batch. -/
theorem rows_apply (c : Dev nD) (i : Fin 4) (j : Fin 2048) (k : Fin 4096) :
    (V m c main_v0 : S8192x4096.Idx → EReal) (ix2 (rowOf i j) k)
      = (m ((c : Thread nD τ).loc main_arg0) : S4x2048x4096.Idx → EReal) (ix3 i j k) := by
  rw [rows_array]
  exact shapeCast_mergeFirst_apply _ _ (rowOf i j) k i j rfl

/-- Entry `(o, u)` of the cut scales is entry `o * 32 + u` of the flat table. -/
theorem scales_apply (c : Dev nD) (o : Fin 4096) (u : Fin 32) (g : Fin 131072) (hg : g.val = o.val * 32 + u.val) :
    (V m c main_v1 : S4096x32.Idx → EReal) (ix2 o u) = (m ((c : Thread nD τ).loc main_arg2) : S131072.Idx → EReal) (ix1 g) := by
  rw [scales_array]
  exact shapeCast_rows_apply _ _ o u g hg

/-- Entry `(o, u)` of the cut zero points is entry `o * 32 + u` of the flat table. -/
theorem zeros_apply (c : Dev nD) (o : Fin 4096) (u : Fin 32) (g : Fin 131072) (hg : g.val = o.val * 32 + u.val) :
    (V m c main_v2 : S4096x32.Idx → BitVec 32) (ix2 o u) = (m ((c : Thread nD τ).loc main_arg3) : S131072.Idx → BitVec 32) (ix1 g) := by
  rw [zeros_array]
  exact shapeCast_rows_apply _ _ o u g hg

/-- The one row of the bias holds the bias. -/
theorem bias_apply (c : Dev nD) (u : Fin 1) (o : Fin 4096) :
    (V m c main_v3 : S1x4096.Idx → EReal) (ix2 u o) = (m ((c : Thread nD τ).loc main_arg4) : S4096.Idx → EReal) (ix1 o) := by
  rw [bias_array]
  exact shapeCast_a_1a_apply _ _ u o

end Cert.KernelIdeal.Entry

end
-- ==== Proof.Tile.lean ====
/-
  What the kernel body stores at one grid point, read entry by entry over the extended reals. The body holds a
  512 × 4096 block of input rows, a 128 × 4096 block of integer weight rows with their 128 × 32 scales and zero
  points (32 groups of 128 columns per row), and a 1 × 128 block of the bias. It regroups the weight rows as
  128 × 32 × 128, subtracts the zero point and multiplies by the scale of each group along the last axis, regroups
  back, transposes, and multiplies the input block by the result into a zero accumulator, then adds the bias row
  to every row. Entry `(p, q)` of the stored tile is therefore `∑ k, x[p, k] * weight[q, k] + bias[0, q]`, the
  weight of column `k` using group `k / 128` of its row.
-/
import proofs.«131902_j88673894793301_1_alg».proof.Proof.Gen.KernelIdeal.Skeleton
import proofs.«131902_j88673894793301_1_alg».proof.Proof.LibRegroup
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx Idealize.ShloMosaic.Regroup

/-- The group of column `k` within its row, and its place within the group. -/
def colGroup (k : Fin 4096) : Fin 32 := ⟨k.val / 128, by have := k.isLt; omega⟩
def colLane (k : Fin 4096) : Fin 128 := ⟨k.val % 128, Nat.mod_lt _ (by decide)⟩

theorem col_split (k : Fin 4096) : k.val = (colGroup k).val * 128 + (colLane k).val := by
  show k.val = k.val / 128 * 128 + k.val % 128
  omega

/-- The dequantized weight of the tile at row `q`, column `k`. -/
def tileWeight (v3 : Vec Ideal S128x4096 .i32) (v6 : Vec Ideal S128x32 .f32) (v9 : Vec Ideal S128x32 .i32)
    (q : Fin 128) (k : Fin 4096) : EReal :=
  (FloatOps.sitofp (F := Ideal) .f32 (v3 (ix2 q k)) - FloatOps.sitofp (F := Ideal) .f32 (v9 (ix2 q (colGroup k))))
    * v6 (ix2 q (colGroup k))

/-- The regrouped, shifted and scaled weight rows, regrouped back, at `(q, k)`. -/
theorem weight_rows_apply (v3 : Vec Ideal S128x4096 .i32) (v6 : Vec Ideal S128x32 .f32) (v9 : Vec Ideal S128x32 .i32)
    (h1 : S128x4096.ShapeCasts S128x32x128) (h2 : S128x32.ShapeCasts S128x32) (h3 : S128x32.ShapeCasts S128x32x1)
    (h4 : S128x32x1.Broadcasts S128x32x128) (h5 : S128x32x128.ShapeCasts S128x4096) (q : Fin 128) (k : Fin 4096) :
    shapeCast S128x4096 (mulf (subf (shapeCast S128x32x128 (sitofp .f32 v3 : FVec Ideal S128x4096 .f32) h1)
        (broadcastTo S128x32x128 (shapeCast S128x32x1 (sitofp .f32 (shapeCast S128x32 v9 h2 : IVec S128x32 32) : FVec Ideal S128x32 .f32) h3) h4))
      (broadcastTo S128x32x128 (shapeCast S128x32x1 (shapeCast S128x32 v6 h2 : FVec Ideal S128x32 .f32) h3) h4)) h5 (ix2 q k)
      = tileWeight v3 v6 v9 q k := by
  rw [shapeCast_mergeLast_apply (by decide : 4096 = 32 * 128) _ h5 q k (colGroup k) (colLane k) (col_split k),
    mulf_apply, subf_apply,
    shapeCast_splitLast_apply (by decide : 4096 = 32 * 128) _ h1 q (colGroup k) (colLane k) k (col_split k),
    broadcastTo_trailingUnit_apply, broadcastTo_trailingUnit_apply, shapeCast_trailingUnit_apply,
    shapeCast_trailingUnit_apply, shapeCast_self, shapeCast_self]
  rfl

/-- The matrix product's operand indices: output entry `(p, q)` meets the input block at row `p` and the
    transposed weight at column `q`, both along the one contracted axis. -/
theorem lhs_row (j : S512x128.Idx) (κ : dot_S512x4096_S4096x128_S512x128_1_0_0_1_n_n.contr.Idx) :
    (dot_S512x4096_S4096x128_S512x128_1_0_0_1_n_n.lhsIdx j κ 0).val = (j 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_contr (j : S512x128.Idx) (κ : dot_S512x4096_S4096x128_S512x128_1_0_0_1_n_n.contr.Idx) :
    (dot_S512x4096_S4096x128_S512x128_1_0_0_1_n_n.lhsIdx j κ 1).val = (κ ⟨0, by decide⟩).val :=
  dot_S512x4096_S4096x128_S512x128_1_0_0_1_n_n.lhsIdx_val_of_single rfl j κ
theorem rhs_contr (j : S512x128.Idx) (κ : dot_S512x4096_S4096x128_S512x128_1_0_0_1_n_n.contr.Idx) :
    (dot_S512x4096_S4096x128_S512x128_1_0_0_1_n_n.rhsIdx j κ 0).val = (κ ⟨0, by decide⟩).val :=
  dot_S512x4096_S4096x128_S512x128_1_0_0_1_n_n.rhsIdx_val_of_single rfl j κ
theorem rhs_col (j : S512x128.Idx) (κ : dot_S512x4096_S4096x128_S512x128_1_0_0_1_n_n.contr.Idx) :
    (dot_S512x4096_S4096x128_S512x128_1_0_0_1_n_n.rhsIdx j κ 1).val = (j 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The stored tile at `(p, q)`. -/
theorem payload_apply (v0 : Vec Ideal S512x4096 .f32) (v3 : Vec Ideal S128x4096 .i32) (v6 : Vec Ideal S128x32 .f32)
    (v9 : Vec Ideal S128x32 .i32) (v21 : Vec Ideal S1x128 .f32) (p : Fin 512) (q : Fin 128) :
    k0_pay1 (F := Ideal) v0 v3 v6 v9 v21 (ix2 p q)
      = (∑ k : Fin 4096, v0 (ix2 p k) * tileWeight v3 v6 v9 q k) + v21 (ix2 (0 : Fin 1) q) := by
  unfold k0_pay1
  dsimp only
  refine (addf_apply _ _ _).trans ?_
  refine congrArg₂ (· + ·) ?_ ?_
  · refine (Ideal.matmul_constant_zero_apply dot_S512x4096_S4096x128_S512x128_1_0_0_1_n_n none _ _ (ix2 p q)).trans ?_
    rw [← Equiv.sum_comp (contrEquiv1 dot_S512x4096_S4096x128_S512x128_1_0_0_1_n_n 4096 rfl rfl).symm]
    refine Finset.sum_congr rfl fun k _ => ?_
    have hk := contrEquiv1_symm_val dot_S512x4096_S4096x128_S512x128_1_0_0_1_n_n 4096 rfl rfl k
    have el : dot_S512x4096_S4096x128_S512x128_1_0_0_1_n_n.lhsIdx (ix2 p q) ((contrEquiv1 dot_S512x4096_S4096x128_S512x128_1_0_0_1_n_n 4096 rfl rfl).symm k) = ix2 p k :=
      funext fun a => Fin.ext (by
        match a with
        | ⟨0, _⟩ => exact lhs_row _ _
        | ⟨1, _⟩ => exact (lhs_contr _ _).trans hk)
    have er : dot_S512x4096_S4096x128_S512x128_1_0_0_1_n_n.rhsIdx (ix2 p q) ((contrEquiv1 dot_S512x4096_S4096x128_S512x128_1_0_0_1_n_n 4096 rfl rfl).symm k) = ix2 k q :=
      funext fun a => Fin.ext (by
        match a with
        | ⟨0, _⟩ => exact (rhs_contr _ _).trans hk
        | ⟨1, _⟩ => exact rhs_col _ _)
    rw [el, er, truncf_apply, shapeCast_self, transpose_ix2_apply, truncf_apply, weight_rows_apply]
  · rw [broadcastTo_1b_ab_apply, shapeCast_self]

end Cert.KernelIdeal.Tile

end
-- ==== Proof.Blocks.lean ====
/-
  From the tiles to the whole array. The grid has 16 × 32 points; point `t` works on input rows
  `512 * (t / 32) … + 511` and output columns `128 * (t % 32) … + 127`, reads the weight rows, scales and zero
  points of exactly those output columns and the bias entries of those columns, and writes back the 512 × 128 tile
  at that place. Every input block is the corresponding array read where the output tile's place says, so the tile
  a point writes back is the block of ONE function of the whole arrays — the linear layer over the numbered rows —
  and since the tiles cover the 8192 × 4096 array, the array ends holding that function.
-/
import proofs.«131902_j88673894793301_1_alg».proof.Proof.Gen.KernelIdeal.Frame
import proofs.«131902_j88673894793301_1_alg».proof.Proof.Entry
import proofs.«131902_j88673894793301_1_alg».proof.Proof.Tile
import proofs.«131902_j88673894793301_1_alg».proof.Proof.Linear
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Cert.KernelIdeal.Entry Cert.KernelIdeal.Tile
open Idealize.ShloMosaic Idealize.ShloMosaic.TcCoe Idealize.SL.Sem
open Idealize.ShloMosaic.Pipeline (Dat)
open Idealize.ShloMosaic.ValueIdx Cert.QLinear

variable (m : (ℓ : Loc nD τ sig) → Buf (Elt Ideal) ℓ)

theorem hz : (![0, 0] : Fin 2 → Nat) = fun _ => 0 := funext fun a => by fin_cases a <;> rfl

/-- The printed index maps, decided once over the 512 grid points: point `t` sits at block row `t / 32` and block
    column `t % 32` of the output; the input rows follow the block row, the weight rows, scales, zero points and
    bias follow the block column. -/
theorem idx_facts : ∀ t : Fin cfg0.N,
    win0_5.index t (0 : Fin 2) = t.val / 32 ∧ win0_5.index t (1 : Fin 2) = t.val % 32
    ∧ win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = t.val % 32 ∧ win0_3.index t (1 : Fin 2) = 0
    ∧ win0_4.index t (0 : Fin 2) = 0 ∧ win0_4.index t (1 : Fin 2) = t.val % 32 :=
  (by decide +kernel : ∀ t : Fin grid0.N, _)

/-- The input block at point `t` is rows `512 * (t / 32) …` of the numbered input rows. -/
theorem input_block_apply (c : Dev nD) (t : Fin cfg0.N) (p : Fin 512) (k : Fin 4096) (r : Fin 8192)
    (hr : r.val = t.val / 32 * 512 + p.val) :
    (iblk m c 0 t : Vec Ideal S512x4096 .f32) (ix2 p k) = (V m c main_v0 : S8192x4096.Idx → EReal) (ix2 r k) := by
  obtain ⟨-, -, e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- The weight block at point `t` is rows `128 * (t % 32) …` of the integer matrix. -/
theorem weight_block_apply (c : Dev nD) (t : Fin cfg0.N) (q : Fin 128) (k : Fin 4096) (o : Fin 4096)
    (ho : o.val = t.val % 32 * 128 + q.val) :
    (iblk m c 1 t : Vec Ideal S128x4096 .i32) (ix2 q k) = (V m c main_arg1 : S4096x4096.Idx → BitVec 32) (ix2 o k) := by
  obtain ⟨-, -, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 128 + 1 * q.val = o.val; rw [e0, ho]; omega
  | ⟨1, _⟩ => show win0_1.index t (1 : Fin 2) * 4096 + 1 * k.val = k.val; rw [e1]; omega

/-- The scale block at point `t` is rows `128 * (t % 32) …` of the cut scales. -/
theorem scale_block_apply (c : Dev nD) (t : Fin cfg0.N) (q : Fin 128) (u : Fin 32) (o : Fin 4096)
    (ho : o.val = t.val % 32 * 128 + q.val) :
    (iblk m c 2 t : Vec Ideal S128x32 .f32) (ix2 q u) = (V m c main_v1 : S4096x32.Idx → EReal) (ix2 o u) := by
  obtain ⟨-, -, -, -, -, -, e0, e1, -⟩ := idx_facts t
  unfold iblk
  rw [View.read_apply]
  show V m c main_v1 _ = V m c main_v1 _
  refine congrArg (V m c main_v1) (funext fun a => Fin.ext ?_)
  match a with
  | ⟨0, _⟩ => show win0_2.index t (0 : Fin 2) * 128 + 1 * q.val = o.val; rw [e0, ho]; omega
  | ⟨1, _⟩ => show win0_2.index t (1 : Fin 2) * 32 + 1 * u.val = u.val; rw [e1]; omega

/-- The zero-point block at point `t` is rows `128 * (t % 32) …` of the cut zero points. -/
theorem zero_block_apply (c : Dev nD) (t : Fin cfg0.N) (q : Fin 128) (u : Fin 32) (o : Fin 4096)
    (ho : o.val = t.val % 32 * 128 + q.val) :
    (iblk m c 3 t : Vec Ideal S128x32 .i32) (ix2 q u) = (V m c main_v2 : S4096x32.Idx → BitVec 32) (ix2 o u) := by
  obtain ⟨-, -, -, -, -, -, -, -, e0, e1, -⟩ := idx_facts t
  unfold iblk
  rw [View.read_apply]
  show V m c main_v2 _ = V m c main_v2 _
  refine congrArg (V m c main_v2) (funext fun a => Fin.ext ?_)
  match a with
  | ⟨0, _⟩ => show win0_3.index t (0 : Fin 2) * 128 + 1 * q.val = o.val; rw [e0, ho]; omega
  | ⟨1, _⟩ => show win0_3.index t (1 : Fin 2) * 32 + 1 * u.val = u.val; rw [e1]; omega

/-- The bias block at point `t` is columns `128 * (t % 32) …` of the bias row. -/
theorem bias_block_apply (c : Dev nD) (t : Fin cfg0.N) (u : Fin 1) (q : Fin 128) (o : Fin 4096)
    (ho : o.val = t.val % 32 * 128 + q.val) :
    (iblk m c 4 t : Vec Ideal S1x128 .f32) (ix2 u q) = (V m c main_v3 : S1x4096.Idx → EReal) (ix2 u o) := by
  obtain ⟨-, -, -, -, -, -, -, -, -, -, e0, e1⟩ := idx_facts t
  unfold iblk
  rw [View.read_apply]
  show V m c main_v3 _ = V m c main_v3 _
  refine congrArg (V m c main_v3) (funext fun a => Fin.ext ?_)
  match a with
  | ⟨0, _⟩ => show win0_4.index t (0 : Fin 2) * 1 + 1 * u.val = u.val; rw [e0]; omega
  | ⟨1, _⟩ => show win0_4.index t (1 : Fin 2) * 128 + 1 * q.val = o.val; rw [e1, ho]; omega

/-- The tile's dequantized weight is the layer's: the blocks are the arrays read at the tile's output columns, and
    group `k / 128` of weight row `o` is group `o * 32 + k / 128` of the flat tables. -/
theorem tile_weight_eq (c : Dev nD) (t : Fin cfg0.N) (q : Fin 128) (k : Fin 4096) (o : Fin 4096)
    (ho : o.val = t.val % 32 * 128 + q.val) :
    tileWeight (iblk m c 1 t) (iblk m c 2 t) (iblk m c 3 t) q k
      = weight (m ((c : Thread nD τ).loc main_arg1)) (m ((c : Thread nD τ).loc main_arg2)) (m ((c : Thread nD τ).loc main_arg3)) o k := by
  unfold tileWeight weight
  rw [weight_block_apply m c t q k o ho, zero_block_apply m c t q (colGroup k) o ho,
    scale_block_apply m c t q (colGroup k) o ho, zeros_apply m c o (colGroup k) (grp o k) rfl,
    scales_apply m c o (colGroup k) (grp o k) rfl, V_main_arg1]

/-- The tile of point `t` at `(p, q)` is the layer's entry for input row `512 * (t / 32) + p` and output column
    `128 * (t % 32) + q`. -/
theorem tile_apply (c : Dev nD) (t : Fin cfg0.N) (p : Fin 512) (q : Fin 128) (r : Fin 8192) (o : Fin 4096)
    (hr : r.val = t.val / 32 * 512 + p.val) (ho : o.val = t.val % 32 * 128 + q.val) :
    k0_pay1 (F := Ideal) (iblk m c 0 t) (iblk m c 1 t) (iblk m c 2 t) (iblk m c 3 t) (iblk m c 4 t) (ix2 p q)
      = rowsAt (V m c main_v0) (m ((c : Thread nD τ).loc main_arg1)) (m ((c : Thread nD τ).loc main_arg2))
          (m ((c : Thread nD τ).loc main_arg3)) (m ((c : Thread nD τ).loc main_arg4)) r o := by
  rw [payload_apply]
  unfold rowsAt
  refine congrArg₂ (· + ·) (Finset.sum_congr rfl fun k _ => ?_) ?_
  · rw [input_block_apply m c t p k r hr, tile_weight_eq m c t q k o ho]
  · rw [bias_block_apply m c t 0 q o ho, bias_apply]

/-- The same with the tile's entry and the array's index given as indices. -/
theorem tile_block (c : Dev nD) (t : Fin cfg0.N) (j : S512x128.Idx) (i : S8192x4096.Idx)
    (h0 : (i 0).val = t.val / 32 * 512 + (j 0).val) (h1 : (i 1).val = t.val % 32 * 128 + (j 1).val) :
    k0_pay1 (F := Ideal) (iblk m c 0 t) (iblk m c 1 t) (iblk m c 2 t) (iblk m c 3 t) (iblk m c 4 t) j
      = rows (V m c main_v0) (m ((c : Thread nD τ).loc main_arg1)) (m ((c : Thread nD τ).loc main_arg2))
          (m ((c : Thread nD τ).loc main_arg3)) (m ((c : Thread nD τ).loc main_arg4)) i := by
  obtain ⟨p, q, rfl⟩ : ∃ (p : Fin 512) (q : Fin 128), j = ix2 p q := ⟨j 0, j 1, eq_ix2 j⟩
  obtain ⟨r, o, rfl⟩ : ∃ (r : Fin 8192) (o : Fin 4096), i = ix2 r o := ⟨i 0, i 1, eq_ix2 i⟩
  exact tile_apply m c t p q r o h0 h1

/-- WHAT POINT `t` WRITES BACK is block `t` of the layer over the numbered rows. -/
theorem flushed_eq (c : Dev nD) (t : Fin cfg0.N) :
    (dats m 0 c).flushed 5 t = ((cfg0.win 5).blk t).view.read (Elt Ideal)
      (rows (V m c main_v0) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero hz]
  simp only [View.ld_unit_zero (S := S512x4096) hz, View.ld_unit_zero (S := S128x4096) hz,
    View.ld_unit_zero (S := S128x32) hz, View.ld_unit_zero (S := S1x128) hz]
  obtain ⟨e0, e1, -⟩ := idx_facts t
  funext j
  refine tile_block m c t j _ ?_ ?_
  · show win0_5.index t (0 : Fin 2) * 512 + 1 * (j 0).val = t.val / 32 * 512 + (j 0).val
    rw [e0]; omega
  · show win0_5.index t (1 : Fin 2) * 128 + 1 * (j 1).val = t.val % 32 * 128 + (j 1).val
    rw [e1]; omega

/-- An index of the array is in point `t`'s tile iff each coordinate is in the tile's range on its axis. -/
theorem mem_blk (t : Fin cfg0.N) (i : S8192x4096.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v4).slice (win0_5.rect t)).set ↔ _
  rw [View.set_slice_whole, Rect.mem_set_unit]
  exact Iff.rfl

/-- The tiles cover the array: index `(r, o)` is in the tile of point `(r / 512) * 32 + o / 128`. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 512 := N_0
  have hlt : (i 0).val / 512 * 32 + (i 1).val / 128 < cfg0.N := by rw [hN]; omega
  obtain ⟨e0, e1, -⟩ := idx_facts ⟨(i 0).val / 512 * 32 + (i 1).val / 128, hlt⟩
  refine ⟨⟨(i 0).val / 512 * 32 + (i 1).val / 128, hlt⟩, flush0_5 _, ?_⟩
  rw [mem_blk]
  intro a
  match a with
  | ⟨0, _⟩ =>
    show win0_5.index ⟨(i 0).val / 512 * 32 + (i 1).val / 128, hlt⟩ (0 : Fin 2) * 512 ≤ (i 0).val
      ∧ (i 0).val < win0_5.index ⟨(i 0).val / 512 * 32 + (i 1).val / 128, hlt⟩ (0 : Fin 2) * 512 + 512
    rw [e0]
    show ((i 0).val / 512 * 32 + (i 1).val / 128) / 32 * 512 ≤ (i 0).val ∧ (i 0).val < ((i 0).val / 512 * 32 + (i 1).val / 128) / 32 * 512 + 512
    omega
  | ⟨1, _⟩ =>
    show win0_5.index ⟨(i 0).val / 512 * 32 + (i 1).val / 128, hlt⟩ (1 : Fin 2) * 128 ≤ (i 1).val
      ∧ (i 1).val < win0_5.index ⟨(i 0).val / 512 * 32 + (i 1).val / 128, hlt⟩ (1 : Fin 2) * 128 + 128
    rw [e1]
    show ((i 0).val / 512 * 32 + (i 1).val / 128) % 32 * 128 ≤ (i 1).val ∧ (i 1).val < ((i 0).val / 512 * 32 + (i 1).val / 128) % 32 * 128 + 128
    omega

/-- THE ARRAY after the region: the layer over the numbered rows. -/
theorem final (c : Dev nD) : (dats m 0 c).arrAt 5 cfg0.N
    = rows (V m c main_v0) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

end Cert.KernelIdeal.Blocks

end
-- ==== Proof.Whole.lean ====
/-
  The kernel program's run, read. After the region the 8192 × 4096 array of tiles holds the linear layer over the
  numbered rows; one host line then cuts the row axis back into the batch of 4 × 2048 rows, so entry `(i, j, o)` of
  the result is entry `(i * 2048 + j, o)` of that array, and row `i * 2048 + j` of the numbered input is row
  `(i, j)` of the batch: the result is the layer over the batch of the program's arguments. The arguments
  themselves end as they were launched.
-/
import proofs.«131902_j88673894793301_1_alg».proof.Proof.Gen.KernelIdeal.Frame
import proofs.«131902_j88673894793301_1_alg».proof.Proof.Blocks
import Idealize.ShloMosaic.Lib.StableHlo.Run

noncomputable section

namespace Cert.KernelIdeal.Whole

open Cert.KernelIdeal Cert.KernelIdeal.Gen Cert.KernelIdeal.Entry Cert.KernelIdeal.Blocks
open Idealize.ShloMosaic Idealize.ShloMosaic.TcCoe Idealize.SL.Sem Idealize.ShloMosaic.StableHlo
open Idealize.ShloMosaic.Pipeline (Dat)
open Idealize.ShloMosaic.ValueIdx Idealize.ShloMosaic.Regroup Cert.QLinear

variable (m : (ℓ : Loc nD τ sig) → Buf (Elt Ideal) ℓ) (ρ : Dev nD → PrngReg)

/-- The result buffer after the host line that follows the region: the layer over the batch. -/
theorem result_array (c : Dev nD) :
    Pipeline.afterTail₀ cfgs (dats m) 0 (V0 m) [hostOps1] c main_v5
      = batch (m ((c : Thread nD τ).loc main_arg0)) (m ((c : Thread nD τ).loc main_arg1)) (m ((c : Thread nD τ).loc main_arg2))
          (m ((c : Thread nD τ).loc main_arg3)) (m ((c : Thread nD τ).loc main_arg4)) := by
  have hA : Pipeline.withArrays (cfgs 0).spec c (V0 m c) (fun w => (dats m 0 c).arrAt w (cfgs 0).N) (Proc.devRef .tc main_v4)
      = rows (V m c main_v0) (m ((c : Thread nD τ).loc main_arg1)) (m ((c : Thread nD τ).loc main_arg2))
          (m ((c : Thread nD τ).loc main_arg3)) (m ((c : Thread nD τ).loc main_arg4)) :=
    (Pipeline.withArrays_arr spec0 launch0.win.arr_inj c _ _ 5).trans (final m c)
  unfold Pipeline.afterTail₀
  show StableHlo.after hostOps1 _ (Proc.devRef .tc main_v5) = _
  after_results
  rw [hA]
  funext i
  obtain ⟨a, b, o, rfl⟩ : ∃ (a : Fin 4) (b : Fin 2048) (o : Fin 4096), i = ix3 a b o := ⟨i 0, i 1, i 2, eq_ix3 i⟩
  show shapeCast S4x2048x4096 (rows (V m c main_v0) (m ((c : Thread nD τ).loc main_arg1)) (m ((c : Thread nD τ).loc main_arg2))
      (m ((c : Thread nD τ).loc main_arg3)) (m ((c : Thread nD τ).loc main_arg4))) shapeCasts_S8192x4096_S4x2048x4096 (ix3 a b o)
    = batchAt (m ((c : Thread nD τ).loc main_arg0)) (m ((c : Thread nD τ).loc main_arg1)) (m ((c : Thread nD τ).loc main_arg2))
        (m ((c : Thread nD τ).loc main_arg3)) (m ((c : Thread nD τ).loc main_arg4)) a b o
  rw [shapeCast_splitFirst_apply _ _ a b o (rowOf a b) rfl]
  exact rowsAt_eq_batchAt _ _ (rows_apply m c) _ _ _ _ a b o

/-- Every weakly fair execution of the kernel program terminates with its result at the layer over the batch of
    its arguments and its arguments as launched. -/
theorem run : θ_run defs (onTc (τ := τ) (main (F := Ideal))) ⟨m, fun _ => 0, ρ⟩ fun r => ∀ c : Dev nD,
      r.2.mem ((c.tc : Thread nD τ).loc main_v5)
        = batch (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_array m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.lean ====
/-
  The kernel and its reference compute one function over the extended reals: a linear layer whose 4096 × 4096
  weight matrix is stored as integers quantized in groups of 128 consecutive columns, each group with a scale and
  an integer zero point, applied to 4 × 2048 input rows of length 4096 and followed by a bias.

  The kernel tiles the output 16 × 32: each grid point dequantizes the 128 weight rows of its output columns
  (subtract the group's zero point, multiply by the group's scale), multiplies its 512 input rows by them and adds
  the bias. The reference dequantizes the whole matrix, one group per row of a 131072 × 128 regrouping, and
  contracts the input with it. Entry `(o, k)` of the weight belongs to group `o * 32 + k / 128` on both sides, so
  both results are `∑ k, x[i, j, k] * ((w[o, k] - zp[g]) * sc[g]) + bias[o]` with `g = o * 32 + k / 128`, the factors
  and the sum in the same order: the equality needs no algebra beyond the arithmetic of the indices, and never
  uses that the inputs are finite.

  Proof/Linear.lean states the function; Proof/Reference.lean shows the reference's result is it;
  Proof/Tile.lean reads one grid point's stored tile entry by entry, Proof/Entry.lean the arrays the region is
  entered with, Proof/Blocks.lean assembles the tiles into the whole array, Proof/Whole.lean follows it through the
  last host line; Proof/LibRegroup.lean holds the index arithmetic of the regroupings. The ideal pass rewrote
  nothing in the kernel, so the idealization claim is empty.
-/
import proofs.«131902_j88673894793301_1_alg».proof.Defs
import proofs.«131902_j88673894793301_1_alg».proof.Proof.Gen.Kernel
import proofs.«131902_j88673894793301_1_alg».proof.Proof.Gen.Kernel.Skeleton
import proofs.«131902_j88673894793301_1_alg».proof.Proof.Gen.Kernel.Launch
import proofs.«131902_j88673894793301_1_alg».proof.Proof.Gen.Kernel.Points
import proofs.«131902_j88673894793301_1_alg».proof.Proof.Gen.Kernel.Frame
import proofs.«131902_j88673894793301_1_alg».proof.Proof.Gen.KernelIdeal
import proofs.«131902_j88673894793301_1_alg».proof.Proof.Gen.KernelIdeal.Skeleton
import proofs.«131902_j88673894793301_1_alg».proof.Proof.Gen.KernelIdeal.Launch
import proofs.«131902_j88673894793301_1_alg».proof.Proof.Gen.KernelIdeal.Points
import proofs.«131902_j88673894793301_1_alg».proof.Proof.Gen.KernelIdeal.Frame
import proofs.«131902_j88673894793301_1_alg».proof.Proof.Gen.ReferenceIdeal
import proofs.«131902_j88673894793301_1_alg».proof.Proof.Gen.Pre_finite_inputs
import proofs.«131902_j88673894793301_1_alg».proof.Proof.Gen.ReferenceIdeal.Run
import proofs.«131902_j88673894793301_1_alg».proof.Proof.Gen.ReferenceIdeal.Read
import proofs.«131902_j88673894793301_1_alg».proof.Proof.Reference
import proofs.«131902_j88673894793301_1_alg».proof.Proof.Whole
import Idealize.ShloMosaic.Adequacy
import Idealize.ShloMosaic.Init

noncomputable section

namespace Cert.Proof

open Idealize.ShloMosaic Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- The idealized kernel runs and keeps its arguments. -/
theorem frame_kernelIdeal : @Cert.frame_KernelIdeal Cert.KernelIdeal.Gen.facts Cert.Pre_finite_inputs.Gen.facts :=
  fun m ρ _ => Cert.KernelIdeal.Gen.frame m ρ

/-- The idealized reference runs and keeps its arguments: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the layer over the batch of their arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.QLinear.batch
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
